-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S4096x1024 : Shape := ⟨2, ![4096, 1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .bf16⟩
  | .hbm, ⟨21, _⟩ => ⟨S4096x1024, .f32⟩
  | .hbm, ⟨22, _⟩ => ⟨S4096x1024, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S8192x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S8192x1024.size a
  hwx0_7 : ∀ i : grid0.Coords, EltTy.bits .f32 = 32 ∨ (Rect.block (s := S8192x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg2) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1024x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S1024x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S1024x1024, .f32⟩
  | .hbm, ⟨63, _⟩ => ⟨S8192x1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S1024x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S1024x1024, .f32⟩
  | .hbm, ⟨78, _⟩ => ⟨S8192x1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_v14 : Ref sig .tc := ⟨.hbm, 34, rfl⟩
abbrev main_cst_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_3 : Ref sig .tc := ⟨.hbm, 85, rfl⟩
abbrev main_v62 : Ref sig .tc := ⟨.hbm, 86, rfl⟩
abbrev main_v63 : Ref sig .tc := ⟨.hbm, 87, rfl⟩
abbrev main_cst_4 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.RegionBits.lean ====
/-
  The kernel's run: the program is ten host operations (the four input-side weight matrices stacked
  and rounded, the four recurrent-side ones likewise, the four pairs of biases added, stacked and reshaped to a row)
  followed by one pipelined region over 32 tiles of 256 batch rows. At each tile the body reads the tile of the input,
  of the hidden state and of the cell state, the two whole weight stacks and the bias row, and stores the new cell-state
  tile and the new hidden-state tile, each through the rectangle that is its whole buffer. Stated here, at any float
  instance: what the region finds in each array, what the body leaves in the two result buffers as a function of the six
  input blocks, the body's triple, the pipeline's proof data and body obligation, the run to the pipeline library's
  post, and that the nineteen argument arrays end unchanged.
-/
import proofs.«175613_j1872605741706_2_alg».proof.Proof.Gen.Kernel.Launch
import proofs.«175613_j1872605741706_2_alg».proof.Proof.Gen.Kernel.Skeleton
import proofs.«175613_j1872605741706_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch contents after the ten host operations that lay the
    weights and biases out (two stacks of four weight matrices, rounded; four bias sums, stacked and reshaped). -/
abbrev entry (c : Dev nD) (b : Ref sig .tc) : Buf (Elt F) ((c : Thread nD τ).loc b) :=
  StableHlo.after hostOps0 (fun b => m (c, b)) b

/-- None of those operations allocates. -/
theorem hostOps_fresh : (hostOps0 : List (HloOp τ sig (Elt F))).Forall fun op => op.fresh = ∅ := by
  simp only [List.Forall]; repeat' constructor

/-- The program is those operations, then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 15: the region finds it as launched. -/
theorem entry_arg15 (c : Dev nD) : entry m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 16: the region finds it as launched. -/
theorem entry_arg16 (c : Dev nD) : entry m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 17: the region finds it as launched. -/
theorem entry_arg17 (c : Dev nD) : entry m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 18: the region finds it as launched. -/
theorem entry_arg18 (c : Dev nD) : entry m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What one call of the body leaves in the two result buffers -/

/-- The whole 256 × 1024 buffer of a batch tile, -/
abbrev rTile : Rect S256x1024 := Rect.unit (s := S256x1024) ![0, 0] S256x1024.size inb_S256x1024_S256x1024_0_0
/-- the whole 4096 × 1024 buffer of a weight stack, -/
abbrev rStack : Rect S4096x1024 := Rect.unit (s := S4096x1024) ![0, 0] S4096x1024.size inb_S4096x1024_S4096x1024_0_0
/-- and the whole 1 × 4096 buffer of the stacked biases. -/
abbrev rBias : Rect S1x4096 := Rect.unit (s := S1x4096) ![0, 0] S1x4096.size inb_S1x4096_S1x4096_0_0

/-- The new cell-state tile from the six input buffers: the one store into the first result buffer. -/
def cellTile (x h c0 : Vec F S256x1024 .f32) (wx wh : Vec F S4096x1024 .bf16) (b : Vec F S1x4096 .f32) : Vec F S256x1024 .f32 :=
  View.canon [⟨rTile, k0_pay2 (View.ld x rTile) (View.ld h rTile) (View.ld c0 rTile) (View.ld wx rStack) (View.ld wh rStack) (View.ld b rBias)⟩]

/-- The new hidden-state tile: the one store into the second result buffer. -/
def hiddenTile (x h c0 : Vec F S256x1024 .f32) (wx wh : Vec F S4096x1024 .bf16) (b : Vec F S1x4096 .f32) : Vec F S256x1024 .f32 :=
  View.canon [⟨rTile, k0_pay3 (View.ld x rTile) (View.ld h rTile) (View.ld c0 rTile) (View.ld wx rStack) (View.ld wh rStack) (View.ld b rBias)⟩]

/-- A store through the whole-buffer rectangle covers the buffer. -/
theorem tile_cover (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole buffers — the six inputs' at read contents, the two results' at anything — runs to the
    continuation with the inputs' as they were and the results' at the two tiles. (It reads each result buffer once before
    overwriting it whole, and uses nothing of what it read.) -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h c0 : Vec F S256x1024 .f32) (wx wh : Vec F S4096x1024 .bf16) (b : Vec F S1x4096 .f32) (K : PUnit → sProp 𝕄) :
    iprop(owns (c : Thread nD τ) arg1 fullShare x ∗ owns (c : Thread nD τ) arg2 fullShare h ∗ owns (c : Thread nD τ) arg3 fullShare c0
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare c0
            ∗ owns (c : Thread nD τ) arg4 fullShare wx ∗ owns (c : Thread nD τ) arg5 fullShare wh ∗ owns (c : Thread nD τ) arg6 fullShare b
            ∗ owns (c : Thread nD τ) arg7 fullShare (cellTile x h c0 wx wh b) ∗ owns (c : Thread nD τ) arg8 fullShare (hiddenTile x h c0 wx wh b)) -∗ K ⟨⟩))
      ⊢ wp frame (wpE (defs₀ (F := F)) Variants.none c none) E (cc0_lstm_kernel i arg1 harg1 arg2 harg2 arg3 harg3 arg4 harg4 arg5 harg5 arg6 harg6 arg7 harg7 arg8 harg8) K := by
  simp only [cc0_lstm_kernel_eq_skeleton]; unfold cc0_lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_cover _)
  iexists _; isplitr
  swap; · iexact H8
  ipureintro
  exact View.read_writes_eq_canon _ _ _ (tile_cover _)

/-! ## The pipeline's proof data -/

/-- On core `c`: the arrays as the region finds them; after the body at point `t` each input buffer at its block and
    the two result buffers at the two tiles of the input blocks; the invariant the scoped rest and the generator
    register, untouched; nothing owed; full shares. -/
def pdat (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => cellTile (blockAt m c 0 t) (blockAt m c 1 t) (blockAt m c 2 t) (blockAt m c 3 t) (blockAt m c 4 t) (blockAt m c 5 t)
    | ⟨7, _⟩ => hiddenTile (blockAt m c 0 t) (blockAt m c 1 t) (blockAt m c 2 t) (blockAt m c 3 t) (blockAt m c 4 t) (blockAt m c 5 t)
  Φ _ := Pipeline.ΦA spec0 c
  q _ := fullShare
  owed _ := 0

/-- Its arrays are the region-entry contents. -/
theorem pdat_arr (c : Dev nD) (w : Fin cfg0.W) : (pdat m 0 c).A w = entry m c (Pipeline.arrRef spec0 w) := by
  dsimp only [pdat]

theorem pdat_after0 (c : Dev nD) (t : Fin cfg0.N) : (pdat m 0 c).after 0 t = blockAt m c 0 t := by dsimp only [pdat]
theorem pdat_after1 (c : Dev nD) (t : Fin cfg0.N) : (pdat m 0 c).after 1 t = blockAt m c 1 t := by dsimp only [pdat]
theorem pdat_after2 (c : Dev nD) (t : Fin cfg0.N) : (pdat m 0 c).after 2 t = blockAt m c 2 t := by dsimp only [pdat]
theorem pdat_after3 (c : Dev nD) (t : Fin cfg0.N) : (pdat m 0 c).after 3 t = blockAt m c 3 t := by dsimp only [pdat]
theorem pdat_after4 (c : Dev nD) (t : Fin cfg0.N) : (pdat m 0 c).after 4 t = blockAt m c 4 t := by dsimp only [pdat]
theorem pdat_after5 (c : Dev nD) (t : Fin cfg0.N) : (pdat m 0 c).after 5 t = blockAt m c 5 t := by dsimp only [pdat]
theorem pdat_after6 (c : Dev nD) (t : Fin cfg0.N) : (pdat m 0 c).after 6 t
    = cellTile (blockAt m c 0 t) (blockAt m c 1 t) (blockAt m c 2 t) (blockAt m c 3 t) (blockAt m c 4 t) (blockAt m c 5 t) := by dsimp only [pdat]
theorem pdat_after7 (c : Dev nD) (t : Fin cfg0.N) : (pdat m 0 c).after 7 t
    = hiddenTile (blockAt m c 0 t) (blockAt m c 1 t) (blockAt m c 2 t) (blockAt m c 3 t) (blockAt m c 4 t) (blockAt m c 5 t) := by dsimp only [pdat]

/-- Input window 0's current buffer holds its block at every point, whether or not it was fetched there. -/
theorem found0 (c : Dev nD) (t : Fin cfg0.N) (d) : (pdat m 0 c).before 0 t d = blockAt m c 0 t :=
  ((pdat m 0 c).before_in_eq_fetched 0 rfl (fun _ => rfl) (fun _ _ _ => rfl)
    (fun t => by rw [pdat_after0]; unfold Dat.blockOf blockAt; rw [pdat_arr]; try rfl) t d).trans
    (by unfold Dat.fetched Dat.blockOf blockAt; rw [pdat_arr]; try rfl)
/-- Input window 1's current buffer holds its block at every point, whether or not it was fetched there. -/
theorem found1 (c : Dev nD) (t : Fin cfg0.N) (d) : (pdat m 0 c).before 1 t d = blockAt m c 1 t :=
  ((pdat m 0 c).before_in_eq_fetched 1 rfl (fun _ => rfl) (fun _ _ _ => rfl)
    (fun t => by rw [pdat_after1]; unfold Dat.blockOf blockAt; rw [pdat_arr]; try rfl) t d).trans
    (by unfold Dat.fetched Dat.blockOf blockAt; rw [pdat_arr]; try rfl)
/-- Input window 2's current buffer holds its block at every point, whether or not it was fetched there. -/
theorem found2 (c : Dev nD) (t : Fin cfg0.N) (d) : (pdat m 0 c).before 2 t d = blockAt m c 2 t :=
  ((pdat m 0 c).before_in_eq_fetched 2 rfl (fun _ => rfl) (fun _ _ _ => rfl)
    (fun t => by rw [pdat_after2]; unfold Dat.blockOf blockAt; rw [pdat_arr]; try rfl) t d).trans
    (by unfold Dat.fetched Dat.blockOf blockAt; rw [pdat_arr]; try rfl)
/-- Input window 3's current buffer holds its block at every point, whether or not it was fetched there. -/
theorem found3 (c : Dev nD) (t : Fin cfg0.N) (d) : (pdat m 0 c).before 3 t d = blockAt m c 3 t :=
  ((pdat m 0 c).before_in_eq_fetched 3 rfl (fun _ => rfl) (fun _ _ _ => rfl)
    (fun t => by rw [pdat_after3]; unfold Dat.blockOf blockAt; rw [pdat_arr]; try rfl) t d).trans
    (by unfold Dat.fetched Dat.blockOf blockAt; rw [pdat_arr]; try rfl)
/-- Input window 4's current buffer holds its block at every point, whether or not it was fetched there. -/
theorem found4 (c : Dev nD) (t : Fin cfg0.N) (d) : (pdat m 0 c).before 4 t d = blockAt m c 4 t :=
  ((pdat m 0 c).before_in_eq_fetched 4 rfl (fun _ => rfl) (fun _ _ _ => rfl)
    (fun t => by rw [pdat_after4]; unfold Dat.blockOf blockAt; rw [pdat_arr]; try rfl) t d).trans
    (by unfold Dat.fetched Dat.blockOf blockAt; rw [pdat_arr]; try rfl)
/-- Input window 5's current buffer holds its block at every point, whether or not it was fetched there. -/
theorem found5 (c : Dev nD) (t : Fin cfg0.N) (d) : (pdat m 0 c).before 5 t d = blockAt m c 5 t :=
  ((pdat m 0 c).before_in_eq_fetched 5 rfl (fun _ => rfl) (fun _ _ _ => rfl)
    (fun t => by rw [pdat_after5]; unfold Dat.blockOf blockAt; rw [pdat_arr]; try rfl) t d).trans
    (by unfold Dat.fetched Dat.blockOf blockAt; rw [pdat_arr]; try rfl)

/-! ## The body obligation at a generic point -/

/-- What the body is called with at point `t`, the windows one by one, -/
def pointPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def pointPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the inputs' buffers hold their blocks, so the triple applies; the invariant and what the core
    owes pass through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5]
  rw [show (pdat m 0 c).Φ t.succ = (pdat m 0 c).Φ t.castSucc from rfl,
    show (pdat m 0 c).owesAt () t.succ = (pdat m 0 c).owesAt () t.castSucc from rfl,
    pdat_after0, pdat_after1, pdat_after2, pdat_after3, pdat_after4, pdat_after5, pdat_after6, pdat_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (pdat (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of the program terminates, nothing faulting, with
    every window's array at what the pipeline library computes from the proof data and every other unscoped buffer as the
    region found it. -/
theorem run_region : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := entry m) (hmain := main_to_region m Variants.none) (hA := pdat_arr m) (hΦ := fun _ _ => rfl)

/-- In any final state satisfying the run's post the nineteen argument arrays are as launched: the three the pipeline
    stages are inputs, which it only reads; the sixteen weights and biases it never touches, and no host operation writes
    an argument. -/
theorem args_of_post (r : PUnit × MemSt nD τ sig (Elt F)) (h : Pipeline.FramePost cfgs (pdat m) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 2).trans (((pdat m 0 c).arrAt_in 2 rfl _).trans ((pdat_arr m c 2).trans (entry_arg0 m c))),
    ((h c).1 1).trans (((pdat m 0 c).arrAt_in 1 rfl _).trans ((pdat_arr m c 1).trans (entry_arg1 m c))),
    ((h c).1 0).trans (((pdat m 0 c).arrAt_in 0 rfl _).trans ((pdat_arr m c 0).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c),
    ((h c).2 main_arg15 (Pipeline.mem_restRefs_of main_arg15 (by decide) (by decide))).trans (entry_arg15 m c),
    ((h c).2 main_arg16 (Pipeline.mem_restRefs_of main_arg16 (by decide) (by decide))).trans (entry_arg16 m c),
    ((h c).2 main_arg17 (Pipeline.mem_restRefs_of main_arg17 (by decide) (by decide))).trans (entry_arg17 m c),
    ((h c).2 main_arg18 (Pipeline.mem_restRefs_of main_arg18 (by decide) (by decide))).trans (entry_arg18 m c)⟩

/-- The nineteen argument arrays end as launched. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m r h c) (run_region m ρ)

end Cert.Kernel.Region

end
-- ==== Proof.RegionIdeal.lean ====
/-
  The idealized kernel's run: the program is ten host operations (the four input-side weight matrices stacked
  and rounded, the four recurrent-side ones likewise, the four pairs of biases added, stacked and reshaped to a row)
  followed by one pipelined region over 32 tiles of 256 batch rows. At each tile the body reads the tile of the input,
  of the hidden state and of the cell state, the two whole weight stacks and the bias row, and stores the new cell-state
  tile and the new hidden-state tile, each through the rectangle that is its whole buffer. Stated here, at any float
  instance: what the region finds in each array, what the body leaves in the two result buffers as a function of the six
  input blocks, the body's triple, the pipeline's proof data and body obligation, the run to the pipeline library's
  post, and that the nineteen argument arrays end unchanged.
-/
import proofs.«175613_j1872605741706_2_alg».proof.Proof.Gen.KernelIdeal.Launch
import proofs.«175613_j1872605741706_2_alg».proof.Proof.Gen.KernelIdeal.Skeleton
import proofs.«175613_j1872605741706_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- A core's buffers when the region is entered: the launch contents after the ten host operations that lay the
    weights and biases out (two stacks of four weight matrices, rounded; four bias sums, stacked and reshaped). -/
abbrev entry (c : Dev nD) (b : Ref sig .tc) : Buf (Elt F) ((c : Thread nD τ).loc b) :=
  StableHlo.after hostOps0 (fun b => m (c, b)) b

/-- None of those operations allocates. -/
theorem hostOps_fresh : (hostOps0 : List (HloOp τ sig (Elt F))).Forall fun op => op.fresh = ∅ := by
  simp only [List.Forall]; repeat' constructor

/-- The program is those operations, then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- No host operation before the region writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 15: the region finds it as launched. -/
theorem entry_arg15 (c : Dev nD) : entry m c main_arg15 = m ((c : Thread nD τ).loc main_arg15) :=
  StableHlo.after_of_forall_not_mem (b := Proc.devRef .tc main_arg15) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 16: the region finds it as launched. -/
theorem entry_arg16 (c : Dev nD) : entry m c main_arg16 = m ((c : Thread nD τ).loc main_arg16) :=
  StableHlo.after_of_forall_not_mem (b := Proc.devRef .tc main_arg16) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 17: the region finds it as launched. -/
theorem entry_arg17 (c : Dev nD) : entry m c main_arg17 = m ((c : Thread nD τ).loc main_arg17) :=
  StableHlo.after_of_forall_not_mem (b := Proc.devRef .tc main_arg17) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))
/-- No host operation before the region writes argument 18: the region finds it as launched. -/
theorem entry_arg18 (c : Dev nD) : entry m c main_arg18 = m ((c : Thread nD τ).loc main_arg18) :=
  StableHlo.after_of_forall_not_mem (b := Proc.devRef .tc main_arg18) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide)))

/-! ## A window's block at a grid point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! ## What one call of the body leaves in the two result buffers -/

/-- The whole 256 × 1024 buffer of a batch tile, -/
abbrev rTile : Rect S256x1024 := Rect.unit (s := S256x1024) ![0, 0] S256x1024.size inb_S256x1024_S256x1024_0_0
/-- the whole 4096 × 1024 buffer of a weight stack, -/
abbrev rStack : Rect S4096x1024 := Rect.unit (s := S4096x1024) ![0, 0] S4096x1024.size inb_S4096x1024_S4096x1024_0_0
/-- and the whole 1 × 4096 buffer of the stacked biases. -/
abbrev rBias : Rect S1x4096 := Rect.unit (s := S1x4096) ![0, 0] S1x4096.size inb_S1x4096_S1x4096_0_0

/-- The new cell-state tile from the six input buffers: the one store into the first result buffer. -/
def cellTile (x h c0 : Vec F S256x1024 .f32) (wx wh : Vec F S4096x1024 .bf16) (b : Vec F S1x4096 .f32) : Vec F S256x1024 .f32 :=
  View.canon [⟨rTile, k0_pay2 (View.ld x rTile) (View.ld h rTile) (View.ld c0 rTile) (View.ld wx rStack) (View.ld wh rStack) (View.ld b rBias)⟩]

/-- The new hidden-state tile: the one store into the second result buffer. -/
def hiddenTile (x h c0 : Vec F S256x1024 .f32) (wx wh : Vec F S4096x1024 .bf16) (b : Vec F S1x4096 .f32) : Vec F S256x1024 .f32 :=
  View.canon [⟨rTile, k0_pay3 (View.ld x rTile) (View.ld h rTile) (View.ld c0 rTile) (View.ld wx rStack) (View.ld wh rStack) (View.ld b rBias)⟩]

/-- A store through the whole-buffer rectangle covers the buffer. -/
theorem tile_cover (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The body on whole buffers — the six inputs' at read contents, the two results' at anything — runs to the
    continuation with the inputs' as they were and the results' at the two tiles. (It reads each result buffer once before
    overwriting it whole, and uses nothing of what it read.) -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S4096x1024 .bf16) (harg4 : arg4.IsWhole)
    (arg5 : Memref sig .tc .vmem S4096x1024 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h c0 : Vec F S256x1024 .f32) (wx wh : Vec F S4096x1024 .bf16) (b : Vec F S1x4096 .f32) (K : PUnit → sProp 𝕄) :
    iprop(owns (c : Thread nD τ) arg1 fullShare x ∗ owns (c : Thread nD τ) arg2 fullShare h ∗ owns (c : Thread nD τ) arg3 fullShare c0
        ∗ owns (c : Thread nD τ) arg4 fullShare wx ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare c0
            ∗ owns (c : Thread nD τ) arg4 fullShare wx ∗ owns (c : Thread nD τ) arg5 fullShare wh ∗ owns (c : Thread nD τ) arg6 fullShare b
            ∗ owns (c : Thread nD τ) arg7 fullShare (cellTile x h c0 wx wh b) ∗ owns (c : Thread nD τ) arg8 fullShare (hiddenTile x h c0 wx wh b)) -∗ K ⟨⟩))
      ⊢ wp frame (wpE (defs₀ (F := F)) Variants.none c none) E (cc0_lstm_kernel i arg1 harg1 arg2 harg2 arg3 harg3 arg4 harg4 arg5 harg5 arg6 harg6 arg7 harg7 arg8 harg8) K := by
  simp only [cc0_lstm_kernel_eq_skeleton]; unfold cc0_lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (tile_cover _)
  iexists _; isplitr
  swap; · iexact H8
  ipureintro
  exact View.read_writes_eq_canon _ _ _ (tile_cover _)

/-! ## The pipeline's proof data -/

/-- On core `c`: the arrays as the region finds them; after the body at point `t` each input buffer at its block and
    the two result buffers at the two tiles of the input blocks; the invariant the scoped rest and the generator
    register, untouched; nothing owed; full shares. -/
def pdat (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => cellTile (blockAt m c 0 t) (blockAt m c 1 t) (blockAt m c 2 t) (blockAt m c 3 t) (blockAt m c 4 t) (blockAt m c 5 t)
    | ⟨7, _⟩ => hiddenTile (blockAt m c 0 t) (blockAt m c 1 t) (blockAt m c 2 t) (blockAt m c 3 t) (blockAt m c 4 t) (blockAt m c 5 t)
  Φ _ := Pipeline.ΦA spec0 c
  q _ := fullShare
  owed _ := 0

/-- Its arrays are the region-entry contents. -/
theorem pdat_arr (c : Dev nD) (w : Fin cfg0.W) : (pdat m 0 c).A w = entry m c (Pipeline.arrRef spec0 w) := by
  dsimp only [pdat]

theorem pdat_after0 (c : Dev nD) (t : Fin cfg0.N) : (pdat m 0 c).after 0 t = blockAt m c 0 t := by dsimp only [pdat]
theorem pdat_after1 (c : Dev nD) (t : Fin cfg0.N) : (pdat m 0 c).after 1 t = blockAt m c 1 t := by dsimp only [pdat]
theorem pdat_after2 (c : Dev nD) (t : Fin cfg0.N) : (pdat m 0 c).after 2 t = blockAt m c 2 t := by dsimp only [pdat]
theorem pdat_after3 (c : Dev nD) (t : Fin cfg0.N) : (pdat m 0 c).after 3 t = blockAt m c 3 t := by dsimp only [pdat]
theorem pdat_after4 (c : Dev nD) (t : Fin cfg0.N) : (pdat m 0 c).after 4 t = blockAt m c 4 t := by dsimp only [pdat]
theorem pdat_after5 (c : Dev nD) (t : Fin cfg0.N) : (pdat m 0 c).after 5 t = blockAt m c 5 t := by dsimp only [pdat]
theorem pdat_after6 (c : Dev nD) (t : Fin cfg0.N) : (pdat m 0 c).after 6 t
    = cellTile (blockAt m c 0 t) (blockAt m c 1 t) (blockAt m c 2 t) (blockAt m c 3 t) (blockAt m c 4 t) (blockAt m c 5 t) := by dsimp only [pdat]
theorem pdat_after7 (c : Dev nD) (t : Fin cfg0.N) : (pdat m 0 c).after 7 t
    = hiddenTile (blockAt m c 0 t) (blockAt m c 1 t) (blockAt m c 2 t) (blockAt m c 3 t) (blockAt m c 4 t) (blockAt m c 5 t) := by dsimp only [pdat]

/-- Input window 0's current buffer holds its block at every point, whether or not it was fetched there. -/
theorem found0 (c : Dev nD) (t : Fin cfg0.N) (d) : (pdat m 0 c).before 0 t d = blockAt m c 0 t :=
  ((pdat m 0 c).before_in_eq_fetched 0 rfl (fun _ => rfl) (fun _ _ _ => rfl)
    (fun t => by rw [pdat_after0]; unfold Dat.blockOf blockAt; rw [pdat_arr]; try rfl) t d).trans
    (by unfold Dat.fetched Dat.blockOf blockAt; rw [pdat_arr]; try rfl)
/-- Input window 1's current buffer holds its block at every point, whether or not it was fetched there. -/
theorem found1 (c : Dev nD) (t : Fin cfg0.N) (d) : (pdat m 0 c).before 1 t d = blockAt m c 1 t :=
  ((pdat m 0 c).before_in_eq_fetched 1 rfl (fun _ => rfl) (fun _ _ _ => rfl)
    (fun t => by rw [pdat_after1]; unfold Dat.blockOf blockAt; rw [pdat_arr]; try rfl) t d).trans
    (by unfold Dat.fetched Dat.blockOf blockAt; rw [pdat_arr]; try rfl)
/-- Input window 2's current buffer holds its block at every point, whether or not it was fetched there. -/
theorem found2 (c : Dev nD) (t : Fin cfg0.N) (d) : (pdat m 0 c).before 2 t d = blockAt m c 2 t :=
  ((pdat m 0 c).before_in_eq_fetched 2 rfl (fun _ => rfl) (fun _ _ _ => rfl)
    (fun t => by rw [pdat_after2]; unfold Dat.blockOf blockAt; rw [pdat_arr]; try rfl) t d).trans
    (by unfold Dat.fetched Dat.blockOf blockAt; rw [pdat_arr]; try rfl)
/-- Input window 3's current buffer holds its block at every point, whether or not it was fetched there. -/
theorem found3 (c : Dev nD) (t : Fin cfg0.N) (d) : (pdat m 0 c).before 3 t d = blockAt m c 3 t :=
  ((pdat m 0 c).before_in_eq_fetched 3 rfl (fun _ => rfl) (fun _ _ _ => rfl)
    (fun t => by rw [pdat_after3]; unfold Dat.blockOf blockAt; rw [pdat_arr]; try rfl) t d).trans
    (by unfold Dat.fetched Dat.blockOf blockAt; rw [pdat_arr]; try rfl)
/-- Input window 4's current buffer holds its block at every point, whether or not it was fetched there. -/
theorem found4 (c : Dev nD) (t : Fin cfg0.N) (d) : (pdat m 0 c).before 4 t d = blockAt m c 4 t :=
  ((pdat m 0 c).before_in_eq_fetched 4 rfl (fun _ => rfl) (fun _ _ _ => rfl)
    (fun t => by rw [pdat_after4]; unfold Dat.blockOf blockAt; rw [pdat_arr]; try rfl) t d).trans
    (by unfold Dat.fetched Dat.blockOf blockAt; rw [pdat_arr]; try rfl)
/-- Input window 5's current buffer holds its block at every point, whether or not it was fetched there. -/
theorem found5 (c : Dev nD) (t : Fin cfg0.N) (d) : (pdat m 0 c).before 5 t d = blockAt m c 5 t :=
  ((pdat m 0 c).before_in_eq_fetched 5 rfl (fun _ => rfl) (fun _ _ _ => rfl)
    (fun t => by rw [pdat_after5]; unfold Dat.blockOf blockAt; rw [pdat_arr]; try rfl) t d).trans
    (by unfold Dat.fetched Dat.blockOf blockAt; rw [pdat_arr]; try rfl)

/-! ## The body obligation at a generic point -/

/-- What the body is called with at point `t`, the windows one by one, -/
def pointPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def pointPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the inputs' buffers hold their blocks, so the triple applies; the invariant and what the core
    owes pass through unread. -/
theorem body_at_point (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5]
  rw [show (pdat m 0 c).Φ t.succ = (pdat m 0 c).Φ t.castSucc from rfl,
    show (pdat m 0 c).owesAt () t.succ = (pdat m 0 c).owesAt () t.castSucc from rfl,
    pdat_after0, pdat_after1, pdat_after2, pdat_after3, pdat_after4, pdat_after5, pdat_after6, pdat_after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (pdat (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of the program terminates, nothing faulting, with
    every window's array at what the pipeline library computes from the proof data and every other unscoped buffer as the
    region found it. -/
theorem run_region : θ_run defs (onTc (τ := τ) (main (F := F))) (s₀ m ρ) (Pipeline.FramePost cfgs (pdat m) 0 (entry m)) :=
  Pipeline.θ_run_frame cfgs (pdat m) (0 : Fin 1) launch0 defs₀ Variants.none m ρ main
    (hbody := fun c => (body_obligation m c).loose) (hshare := fun c => (pdat m 0 c).share_full fun _ => rfl)
    (howed := fun _ _ => rfl) (V := entry m) (hmain := main_to_region m Variants.none) (hA := pdat_arr m) (hΦ := fun _ _ => rfl)

/-- In any final state satisfying the run's post the nineteen argument arrays are as launched: the three the pipeline
    stages are inputs, which it only reads; the sixteen weights and biases it never touches, and no host operation writes
    an argument. -/
theorem args_of_post (r : PUnit × MemSt nD τ sig (Elt F)) (h : Pipeline.FramePost cfgs (pdat m) 0 (entry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 2).trans (((pdat m 0 c).arrAt_in 2 rfl _).trans ((pdat_arr m c 2).trans (entry_arg0 m c))),
    ((h c).1 1).trans (((pdat m 0 c).arrAt_in 1 rfl _).trans ((pdat_arr m c 1).trans (entry_arg1 m c))),
    ((h c).1 0).trans (((pdat m 0 c).arrAt_in 0 rfl _).trans ((pdat_arr m c 0).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c),
    ((h c).2 main_arg15 (Pipeline.mem_restRefs_of main_arg15 (by decide) (by decide))).trans (entry_arg15 m c),
    ((h c).2 main_arg16 (Pipeline.mem_restRefs_of main_arg16 (by decide) (by decide))).trans (entry_arg16 m c),
    ((h c).2 main_arg17 (Pipeline.mem_restRefs_of main_arg17 (by decide) (by decide))).trans (entry_arg17 m c),
    ((h c).2 main_arg18 (Pipeline.mem_restRefs_of main_arg18 (by decide) (by decide))).trans (entry_arg18 m c)⟩

/-- The nineteen argument arrays end as launched. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m r h c) (run_region m ρ)

end Cert.KernelIdeal.Region

end
-- ==== Proof.LibMatmulRowsByRows.lean ====
/-
  A matrix product whose right operand is contracted on its LAST axis — `x · wᵀ` for `x : [M, K]` and `w : [N, K]`,
  the dimension numbers `DotDims.transposedRhs M K N` — read at an entry, on the extended reals: into a zero
  accumulator, entry `(p, q)` of the product is the inner product of row `p` of `x` with row `q` of `w`,

      ∑ k : Fin K, x (p, k) · w (q, k).

  The library states a product's entry as a sum over the dimension numbers' contraction index of the operands at the
  indices the dimension numbers compute; here those two indices are named by their coordinates and the contraction index
  is replaced by its one coordinate. General in the three extents and the operands' formats.
-/
import Idealize.ShloMosaic.PureOps.Ideal.Laws
import Idealize.ShloMosaic.Lib.ValueIdx

noncomputable section

open scoped BigOperators

namespace Idealize.ShloMosaic.ValueIdx

open Idealize.ShloMosaic

variable {M K N : Nat}

/-- The left operand's row is the entry's row … -/
theorem transposedRhs_lhsIdx_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … the right operand's row is the entry's column … -/
theorem transposedRhs_rhsIdx_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and both operands' columns are the contraction's one coordinate: entry `(p, q)` of `x · wᵀ`, accumulated from
    zero, is the inner product of row `p` of `x` and row `q` of `w`. -/
theorem matmul_transposedRhs_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant ⟨2, ![M, N]⟩ .f32 0x00000000#32) (ix2 p q)
      = ∑ k : Fin K, x (ix2 p k) * w (ix2 q k) := by
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k :=
    funext fun a => Fin.ext (by
      match a with
      | ⟨0, _⟩ => exact transposedRhs_lhsIdx_row _ _
      | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k :=
    funext fun a => Fin.ext (by
      match a with
      | ⟨0, _⟩ => exact transposedRhs_rhsIdx_row _ _
      | ⟨1, _⟩ => exact ((DotDims.transposedRhs M K N).rhsIdx_val_of_single rfl _ _).trans hk)
  rw [el, er]

end Idealize.ShloMosaic.ValueIdx

end
-- ==== Proof.TileMath.lean ====
/-
  The body's arithmetic at one entry of a tile, on the extended reals.

  At a tile of 256 batch rows the body holds the tile `x` of the input, `h` of the hidden state and `c0` of the cell
  state, the stack `wx` of the four input-side weight matrices (4096 rows: gate `g`'s output feature `q` is row
  `1024·g + q`), the stack `wh` of the recurrent-side ones, and the row `b` of the 4096 stacked bias sums. Rounding to the
  narrower format is the identity on the extended reals, so row `p`, stacked feature `n` of the stacked pre-activations is

      (∑ k, x (p, k) · wx (n, k) + ∑ k, h (p, k) · wh (n, k)) + b (0, n),

  each matrix product accumulated from zero being the plain sum of products. The four gates are the four column blocks of
  that array, and the two stored tiles are

      c0 · σ(block 0) + σ(block 1) · tanh(block 2)        and        σ(block 3) · tanh(the first tile),

  entry by entry, with σ the logistic function and tanh the hyperbolic tangent of the ideal instance.
-/
import proofs.«175613_j1872605741706_2_alg».proof.Proof.Gen.KernelIdeal.Skeleton
import proofs.«175613_j1872605741706_2_alg».proof.Proof.LibMatmulRowsByRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen
open Idealize.ShloMosaic Idealize.ShloMosaic.ValueIdx

variable (x h c0 : FVec Ideal S256x1024 .f32) (wx wh : FVec Ideal S4096x1024 .bf16) (b : FVec Ideal S1x4096 .f32)

/-- The body's product record contracts each operand's last axis: it is the rows-by-rows record. -/
theorem dims_eq : dot_S256x1024_S4096x1024_S256x4096_1_1_0_0_n_n = DotDims.transposedRhs 256 1024 4096 := rfl

/-- Row `p`, stacked feature `n` of the stacked pre-activations. -/
def preAt (p : Fin 256) (n : Fin 4096) : EReal :=
  ((∑ k : Fin 1024, x (ix2 p k) * wx (ix2 n k)) + (∑ k : Fin 1024, h (ix2 p k) * wh (ix2 n k))) + b (ix2 (0 : Fin 1) n)

/-- The first payload IS that array. -/
theorem pre_apply (p : Fin 256) (n : Fin 4096) : k0_pay1 (F := Ideal) x h wx wh b (ix2 p n) = preAt x h wx wh b p n := by
  unfold k0_pay1 preAt
  rw [shapeCast_self, shapeCast_self, shapeCast_self, dims_eq]
  rw [addf_apply, addf_apply]
  have e1 := matmul_transposedRhs_zero_apply (M := 256) (K := 1024) (N := 4096) none (truncf .bf16 x bitsLt_bf16_f32) wx p n
  have e2 := matmul_transposedRhs_zero_apply (M := 256) (K := 1024) (N := 4096) none (truncf .bf16 h bitsLt_bf16_f32) wh p n
  have e3 := broadcastTo_1b_ab_apply b broadcasts_S1x4096_S256x4096 p n
  exact congrArg₂ (· + ·) (congrArg₂ (· + ·) e1 e2) e3

/-- Column block `g` of a 4096-wide row: stacked feature `1024·g + q`. -/
def stacked (g : Fin 4) (q : Fin 1024) : Fin 4096 := ⟨1024 * g.val + q.val, by have := g.isLt; have := q.isLt; omega⟩

/-- The first stored tile at `(p, q)`: the cell state times the forget gate plus the input gate times the candidate. -/
theorem cell_apply (p : Fin 256) (q : Fin 1024) :
    k0_pay2 (F := Ideal) x h c0 wx wh b (ix2 p q)
      = c0 (ix2 p q) * Ideal.logistic (preAt x h wx wh b p (stacked 0 q))
        + Ideal.logistic (preAt x h wx wh b p (stacked 1 q)) * Ideal.tanh (preAt x h wx wh b p (stacked 2 q)) := by
  unfold k0_pay2
  rw [addf_apply, mulf_apply, mulf_apply]
  have s0 : extractStridedSlice S256x1024 ![0, 0] (k0_pay1 (F := Ideal) x h wx wh b) slices_S256x4096_o0_0_S256x1024 (ix2 p q)
      = preAt x h wx wh b p (stacked 0 q) :=
    (extractStridedSlice_apply (s := S256x4096) (t := S256x1024) ![0, 0] (k0_pay1 (F := Ideal) x h wx wh b) slices_S256x4096_o0_0_S256x1024 (ix2 p q) (ix2 p (stacked 0 q))
      (fun a => by match a with
        | ⟨0, _⟩ => show p.val = 0 + p.val; omega
        | ⟨1, _⟩ => show 1024 * 0 + q.val = 0 + q.val; omega)).trans (pre_apply x h wx wh b p (stacked 0 q))
  have s1 : extractStridedSlice S256x1024 ![0, 1024] (k0_pay1 (F := Ideal) x h wx wh b) slices_S256x4096_o0_1024_S256x1024 (ix2 p q)
      = preAt x h wx wh b p (stacked 1 q) :=
    (extractStridedSlice_apply (s := S256x4096) (t := S256x1024) ![0, 1024] (k0_pay1 (F := Ideal) x h wx wh b) slices_S256x4096_o0_1024_S256x1024 (ix2 p q) (ix2 p (stacked 1 q))
      (fun a => by match a with
        | ⟨0, _⟩ => show p.val = 0 + p.val; omega
        | ⟨1, _⟩ => show 1024 * 1 + q.val = 1024 + q.val; omega)).trans (pre_apply x h wx wh b p (stacked 1 q))
  have s2 : extractStridedSlice S256x1024 ![0, 2048] (k0_pay1 (F := Ideal) x h wx wh b) slices_S256x4096_o0_2048_S256x1024 (ix2 p q)
      = preAt x h wx wh b p (stacked 2 q) :=
    (extractStridedSlice_apply (s := S256x4096) (t := S256x1024) ![0, 2048] (k0_pay1 (F := Ideal) x h wx wh b) slices_S256x4096_o0_2048_S256x1024 (ix2 p q) (ix2 p (stacked 2 q))
      (fun a => by match a with
        | ⟨0, _⟩ => show p.val = 0 + p.val; omega
        | ⟨1, _⟩ => show 1024 * 2 + q.val = 2048 + q.val; omega)).trans (pre_apply x h wx wh b p (stacked 2 q))
  show c0 (ix2 p q) * Ideal.logistic (extractStridedSlice S256x1024 ![0, 0] (k0_pay1 (F := Ideal) x h wx wh b) slices_S256x4096_o0_0_S256x1024 (ix2 p q))
      + Ideal.logistic (extractStridedSlice S256x1024 ![0, 1024] (k0_pay1 (F := Ideal) x h wx wh b) slices_S256x4096_o0_1024_S256x1024 (ix2 p q))
        * Ideal.tanh (extractStridedSlice S256x1024 ![0, 2048] (k0_pay1 (F := Ideal) x h wx wh b) slices_S256x4096_o0_2048_S256x1024 (ix2 p q)) = _
  rw [s0, s1, s2]

/-- The second stored tile at `(p, q)`: the output gate times the hyperbolic tangent of the new cell state. -/
theorem hidden_apply (p : Fin 256) (q : Fin 1024) :
    k0_pay3 (F := Ideal) x h c0 wx wh b (ix2 p q)
      = Ideal.logistic (preAt x h wx wh b p (stacked 3 q)) * Ideal.tanh (k0_pay2 (F := Ideal) x h c0 wx wh b (ix2 p q)) := by
  unfold k0_pay3
  rw [mulf_apply]
  have s3 : extractStridedSlice S256x1024 ![0, 3072] (k0_pay1 (F := Ideal) x h wx wh b) slices_S256x4096_o0_3072_S256x1024 (ix2 p q)
      = preAt x h wx wh b p (stacked 3 q) :=
    (extractStridedSlice_apply (s := S256x4096) (t := S256x1024) ![0, 3072] (k0_pay1 (F := Ideal) x h wx wh b) slices_S256x4096_o0_3072_S256x1024 (ix2 p q) (ix2 p (stacked 3 q))
      (fun a => by match a with
        | ⟨0, _⟩ => show p.val = 0 + p.val; omega
        | ⟨1, _⟩ => show 1024 * 3 + q.val = 3072 + q.val; omega)).trans (pre_apply x h wx wh b p (stacked 3 q))
  show Ideal.logistic (extractStridedSlice S256x1024 ![0, 3072] (k0_pay1 (F := Ideal) x h wx wh b) slices_S256x4096_o0_3072_S256x1024 (ix2 p q))
      * Ideal.tanh (k0_pay2 (F := Ideal) x h c0 wx wh b (ix2 p q)) = _
  rw [s3]

end Cert.KernelIdeal.Tile

end
-- ==== Proof.LibStackOfFour.lean ====
/-
  A stack of four arrays along the leading axis, read at coordinates.

  Concatenating four arrays of one shape along axis 0 lays them one under the other: row `r·g + q` of the stack is row
  `q` of piece `g`. Stated for rank two (four `[r, c]` matrices stacked into `[R, c]`) and for rank one (four vectors of
  length `r` laid end to end into one of length `R`), for any extents and any entries; the total extent `R` is whatever the
  concatenation's side condition says it is. Imports only the library.
-/
import Idealize.ShloMosaic.Lib.Pipeline.Value
import Idealize.ShloMosaic.Lib.ValueIdx

noncomputable section

namespace Idealize.ShloMosaic.ValueIdx

open Idealize.ShloMosaic

variable {α : Type}

/-- Four `[r, c]` matrices stacked along the rows: row `r·g + q`, column `k` of the stack is entry `(q, k)` of piece `g`. -/
theorem concatenate_four_rows_apply {r c R : Nat} (x0 x1 x2 x3 : (⟨2, ![r, c]⟩ : Shape).Idx → α)
    (h : Shape.Concatenates ([⟨2, ![r, c]⟩, ⟨2, ![r, c]⟩, ⟨2, ![r, c]⟩, ⟨2, ![r, c]⟩] : List Shape) ⟨2, ![R, c]⟩ (0 : Fin 2))
    (g : Fin 4) (q : Fin r) (k : Fin c) (n : Fin R) (hn : n.val = r * g.val + q.val) :
    concatenate ⟨2, ![R, c]⟩ (0 : Fin 2) [⟨⟨2, ![r, c]⟩, x0⟩, ⟨⟨2, ![r, c]⟩, x1⟩, ⟨⟨2, ![r, c]⟩, x2⟩, ⟨⟨2, ![r, c]⟩, x3⟩] h (ix2 n k)
      = (match g with | ⟨0, _⟩ => x0 | ⟨1, _⟩ => x1 | ⟨2, _⟩ => x2 | ⟨3, _⟩ => x3) (ix2 q k) := by
  have hi : ∀ b : Fin 2, b.cast rfl ≠ (0 : Fin 2) → ((ix2 q k : (⟨2, ![r, c]⟩ : Shape).Idx) b).val = ((ix2 n k : (⟨2, ![R, c]⟩ : Shape).Idx) (b.cast rfl)).val :=
    fun b hb => by
      match b with
      | ⟨0, _⟩ => exact absurd rfl hb
      | ⟨1, _⟩ => rfl
  match g with
  | ⟨0, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩, ⟨⟨2, ![r, c]⟩, x3⟩] h (ix2 n k) 0 (by show 0 < 4; omega) ⟨2, ![r, c]⟩ x0 rfl rfl _ rfl (ix2 q k) hi
      (by show 0 + q.val = n.val; simp only [hn]; omega)
  | ⟨1, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩, ⟨⟨2, ![r, c]⟩, x3⟩] h (ix2 n k) 1 (by show 1 < 4; omega) ⟨2, ![r, c]⟩ x1 rfl rfl _ rfl (ix2 q k) hi
      (by show r + 0 + q.val = n.val; simp only [hn]; omega)
  | ⟨2, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩, ⟨⟨2, ![r, c]⟩, x3⟩] h (ix2 n k) 2 (by show 2 < 4; omega) ⟨2, ![r, c]⟩ x2 rfl rfl _ rfl (ix2 q k) hi
      (by show r + (r + 0) + q.val = n.val; simp only [hn]; omega)
  | ⟨3, _⟩ =>
    exact concatenate_apply_piece (t := ⟨2, ![R, c]⟩) (0 : Fin 2) [⟨⟨2, ![r, c]⟩, x0⟩, ⟨⟨2, ![r, c]⟩, x1⟩, ⟨⟨2, ![r, c]⟩, x2⟩, ⟨⟨2, ![r, c]⟩, x3⟩] h (ix2 n k) 3 (by show 3 < 4; omega) ⟨2, ![r, c]⟩ x3 rfl rfl _ rfl (ix2 q k) hi
      (by show r + (r + (r + 0)) + q.val = n.val; simp only [hn]; omega)

/-- Four vectors of length `r` laid end to end: entry `r·g + q` of the result is entry `q` of piece `g`. -/
theorem concatenate_four_vectors_apply {r R : Nat} (x0 x1 x2 x3 : (⟨1, ![r]⟩ : Shape).Idx → α)
    (h : Shape.Concatenates ([⟨1, ![r]⟩, ⟨1, ![r]⟩, ⟨1, ![r]⟩, ⟨1, ![r]⟩] : List Shape) ⟨1, ![R]⟩ (0 : Fin 1))
    (g : Fin 4) (q : Fin r) (n : Fin R) (hn : n.val = r * g.val + q.val) :
    concatenate ⟨1, ![R]⟩ (0 : Fin 1) [⟨⟨1, ![r]⟩, x0⟩, ⟨⟨1, ![r]⟩, x1⟩, ⟨⟨1, ![r]⟩, x2⟩, ⟨⟨1, ![r]⟩, x3⟩] h (ix1 n)
      = (match g with | ⟨0, _⟩ => x0 | ⟨1, _⟩ => x1 | ⟨2, _⟩ => x2 | ⟨3, _⟩ => x3) (ix1 q) := by
  have hi : ∀ b : Fin 1, b.cast rfl ≠ (0 : Fin 1) → ((ix1 q : (⟨1, ![r]⟩ : Shape).Idx) b).val = ((ix1 n : (⟨1, ![R]⟩ : Shape).Idx) (b.cast rfl)).val :=
    fun b hb => by
      match b with
      | ⟨0, _⟩ => exact absurd rfl hb
  match g with
  | ⟨0, _⟩ =>
    exact concatenate_apply_piece (t := ⟨1, ![R]⟩) (0 : Fin 1) [⟨⟨1, ![r]⟩, x0⟩, ⟨⟨1, ![r]⟩, x1⟩, ⟨⟨1, ![r]⟩, x2⟩, ⟨⟨1, ![r]⟩, x3⟩] h (ix1 n) 0 (by show 0 < 4; omega) ⟨1, ![r]⟩ x0 rfl rfl _ rfl (ix1 q) hi
      (by show 0 + q.val = n.val; simp only [hn]; omega)
  | ⟨1, _⟩ =>
    exact concatenate_apply_piece (t := ⟨1, ![R]⟩) (0 : Fin 1) [⟨⟨1, ![r]⟩, x0⟩, ⟨⟨1, ![r]⟩, x1⟩, ⟨⟨1, ![r]⟩, x2⟩, ⟨⟨1, ![r]⟩, x3⟩] h (ix1 n) 1 (by show 1 < 4; omega) ⟨1, ![r]⟩ x1 rfl rfl _ rfl (ix1 q) hi
      (by show r + 0 + q.val = n.val; simp only [hn]; omega)
  | ⟨2, _⟩ =>
    exact concatenate_apply_piece (t := ⟨1, ![R]⟩) (0 : Fin 1) [⟨⟨1, ![r]⟩, x0⟩, ⟨⟨1, ![r]⟩, x1⟩, ⟨⟨1, ![r]⟩, x2⟩, ⟨⟨1, ![r]⟩, x3⟩] h (ix1 n) 2 (by show 2 < 4; omega) ⟨1, ![r]⟩ x2 rfl rfl _ rfl (ix1 q) hi
      (by show r + (r + 0) + q.val = n.val; simp only [hn]; omega)
  | ⟨3, _⟩ =>
    exact concatenate_apply_piece (t := ⟨1, ![R]⟩) (0 : Fin 1) [⟨⟨1, ![r]⟩, x0⟩, ⟨⟨1, ![r]⟩, x1⟩, ⟨⟨1, ![r]⟩, x2⟩, ⟨⟨1, ![r]⟩, x3⟩] h (ix1 n) 3 (by show 3 < 4; omega) ⟨1, ![r]⟩ x3 rfl rfl _ rfl (ix1 q) hi
      (by show r + (r + (r + 0)) + q.val = n.val; simp only [hn]; omega)

end Idealize.ShloMosaic.ValueIdx

end
-- ==== Proof.LstmCell.lean ====
/-
  One step of a long short-term memory cell, on the extended reals, entry by entry.

  The state is a batch of 8192 rows of 1024 entries: the cell state `c` and the hidden state `h`; the input `x` has the
  same shape. Each of the four gates (forget, input, candidate, output) has an input weight `Wx` and a recurrent weight
  `Wh`, both 1024 × 1024 with the OUTPUT feature indexing the rows, and two bias vectors. A gate's pre-activation at
  row `p`, feature `q` is

      (∑ k, x (p, k) · Wx (q, k) + bx q) + (∑ k, h (p, k) · Wh (q, k) + bh q),

  and the step is

      c' = c · σ(forget) + σ(input) · tanh(candidate),        h' = σ(output) · tanh(c'),

  with σ the logistic function and tanh the hyperbolic tangent, both extended to ±∞ as the ideal instance extends them.
  Sums, products and the two functions are the extended reals' own; nothing here needs an entry to be finite.
-/
import Idealize.ShloMosaic.PureOps.Ideal
import Idealize.ShloMosaic.Lib.ValueIdx

noncomputable section

open scoped BigOperators

namespace Cert.LstmCell

open Idealize.ShloMosaic Idealize.ShloMosaic.ValueIdx

/-- A batch of states or inputs: 8192 rows of 1024 entries. -/
abbrev SB : Shape := ⟨2, ![8192, 1024]⟩
/-- A weight matrix: row = output feature, column = input feature. -/
abbrev SW : Shape := ⟨2, ![1024, 1024]⟩
/-- A bias vector. -/
abbrev Sv : Shape := ⟨1, ![1024]⟩

/-- One affine map `x · Wᵀ + b` at row `p`, output feature `q`. -/
def affine (x : SB.Idx → EReal) (W : SW.Idx → EReal) (b : Sv.Idx → EReal) (p : Fin 8192) (q : Fin 1024) : EReal :=
  (∑ k : Fin 1024, x (ix2 p k) * W (ix2 q k)) + b (ix1 q)

/-- A gate's parameters: the input-side weight and bias, the recurrent-side weight and bias. -/
structure Gate where
  Wx : SW.Idx → EReal
  bx : Sv.Idx → EReal
  Wh : SW.Idx → EReal
  bh : Sv.Idx → EReal

/-- A gate's pre-activation: the input's affine image plus the hidden state's. -/
def Gate.pre (g : Gate) (x h : SB.Idx → EReal) (p : Fin 8192) (q : Fin 1024) : EReal :=
  affine x g.Wx g.bx p q + affine h g.Wh g.bh p q

/-- The new cell state at `(p, q)`. -/
def cellAt (c h x : SB.Idx → EReal) (f i g : Gate) (p : Fin 8192) (q : Fin 1024) : EReal :=
  c (ix2 p q) * Ideal.logistic (f.pre x h p q) + Ideal.logistic (i.pre x h p q) * Ideal.tanh (g.pre x h p q)

/-- The new hidden state at `(p, q)`. -/
def hiddenAt (c h x : SB.Idx → EReal) (f i g o : Gate) (p : Fin 8192) (q : Fin 1024) : EReal :=
  Ideal.logistic (o.pre x h p q) * Ideal.tanh (cellAt c h x f i g p q)

/-- The new cell state as an array. -/
def cellNext (c h x : SB.Idx → EReal) (f i g : Gate) : SB.Idx → EReal :=
  fun j => cellAt c h x f i g (j 0) (j 1)

/-- The new hidden state as an array. -/
def hiddenNext (c h x : SB.Idx → EReal) (f i g o : Gate) : SB.Idx → EReal :=
  fun j => hiddenAt c h x f i g o (j 0) (j 1)

theorem cellNext_apply (c h x : SB.Idx → EReal) (f i g : Gate) (p : Fin 8192) (q : Fin 1024) :
    cellNext c h x f i g (ix2 p q) = cellAt c h x f i g p q := rfl

theorem hiddenNext_apply (c h x : SB.Idx → EReal) (f i g o : Gate) (p : Fin 8192) (q : Fin 1024) :
    hiddenNext c h x f i g o (ix2 p q) = hiddenAt c h x f i g o p q := rfl

/-- Regrouping a gate's pre-activation: the two products first, then the two biases. Addition of extended reals is
    commutative and associative, so no entry need be finite. -/
theorem Gate.pre_regroup (g : Gate) (x h : SB.Idx → EReal) (p : Fin 8192) (q : Fin 1024) :
    g.pre x h p q
      = ((∑ k : Fin 1024, x (ix2 p k) * g.Wx (ix2 q k)) + (∑ k : Fin 1024, h (ix2 p k) * g.Wh (ix2 q k)))
        + (g.bx (ix1 q) + g.bh (ix1 q)) := by
  unfold Gate.pre affine
  exact add_add_add_comm _ _ _ _

end Cert.LstmCell

end
-- ==== Proof.TileOperands.lean ====
/-
  What the region finds in its operands, entry by entry, on the extended reals.

  The three batch arrays (input, hidden state, cell state) are staged tile by tile: at tile `t` the block holds rows
  `256·t … 256·t + 255`, so entry `(p, k)` of the block is entry `(256·t + p, k)` of the array. The two weight stacks and the
  bias row are staged whole, once. Before the region the host operations build them: the input-side stack is the four
  input-side weight matrices one under the other (gate `g`'s output feature `q` in row `1024·g + q`), rounded to the
  narrower format, which changes nothing on the extended reals; the recurrent-side stack likewise; the bias row holds at
  column `1024·g + q` the sum of gate `g`'s two biases at `q`.
-/
import proofs.«175613_j1872605741706_2_alg».proof.Proof.RegionIdeal
import proofs.«175613_j1872605741706_2_alg».proof.Proof.TileMath
import proofs.«175613_j1872605741706_2_alg».proof.Proof.LibStackOfFour
import proofs.«175613_j1872605741706_2_alg».proof.Proof.LstmCell
import Idealize.ShloMosaic.Lib.StableHlo.Run

set_option maxRecDepth 16384

noncomputable section

namespace Cert.KernelIdeal.Operands

open Cert.KernelIdeal Cert.KernelIdeal.Gen Cert.KernelIdeal.Region Cert.KernelIdeal.Tile
open Idealize.ShloMosaic Idealize.ShloMosaic.TcCoe Idealize.SL.Sem Idealize.ShloMosaic.StableHlo Idealize.ShloMosaic.ValueIdx
open Cert.LstmCell (Gate)

variable (m : (ℓ : Loc nD τ sig) → Buf (Elt Ideal) ℓ)

/-- The four gates' parameters as launched, in the stacking order: forget, input, candidate, output. -/
def gate (c : Dev nD) : Fin 4 → Gate
  | ⟨0, _⟩ => ⟨m ((c : Thread nD τ).loc main_arg3), m ((c : Thread nD τ).loc main_arg4), m ((c : Thread nD τ).loc main_arg5), m ((c : Thread nD τ).loc main_arg6)⟩
  | ⟨1, _⟩ => ⟨m ((c : Thread nD τ).loc main_arg7), m ((c : Thread nD τ).loc main_arg8), m ((c : Thread nD τ).loc main_arg9), m ((c : Thread nD τ).loc main_arg10)⟩
  | ⟨2, _⟩ => ⟨m ((c : Thread nD τ).loc main_arg11), m ((c : Thread nD τ).loc main_arg12), m ((c : Thread nD τ).loc main_arg13), m ((c : Thread nD τ).loc main_arg14)⟩
  | ⟨3, _⟩ => ⟨m ((c : Thread nD τ).loc main_arg15), m ((c : Thread nD τ).loc main_arg16), m ((c : Thread nD τ).loc main_arg17), m ((c : Thread nD τ).loc main_arg18)⟩

/-! ## The host operations' results -/

/-- The input-side weight stack the region finds. -/
theorem stack_x_eq (c : Dev nD) :
    (entry (F := Ideal) m c main_v1 : S4096x1024.Idx → EReal)
      = (truncf (F := Ideal) .bf16 (concatenate S4096x1024 0 [⟨S1024x1024, m ((c : Thread nD τ).loc main_arg3)⟩, ⟨S1024x1024, m ((c : Thread nD τ).loc main_arg7)⟩, ⟨S1024x1024, m ((c : Thread nD τ).loc main_arg11)⟩, ⟨S1024x1024, m ((c : Thread nD τ).loc main_arg15)⟩]
          concatenates_S1024x1024_S1024x1024_S1024x1024_S1024x1024_S4096x1024_d0 : FVec Ideal S4096x1024 .f32) bitsLt_bf16_f32 : FVec Ideal S4096x1024 .bf16) := by
  dsimp only [entry, hostOps0]
  after_results
  rfl

/-- The recurrent-side weight stack the region finds. -/
theorem stack_h_eq (c : Dev nD) :
    (entry (F := Ideal) m c main_v3 : S4096x1024.Idx → EReal)
      = (truncf (F := Ideal) .bf16 (concatenate S4096x1024 0 [⟨S1024x1024, m ((c : Thread nD τ).loc main_arg5)⟩, ⟨S1024x1024, m ((c : Thread nD τ).loc main_arg9)⟩, ⟨S1024x1024, m ((c : Thread nD τ).loc main_arg13)⟩, ⟨S1024x1024, m ((c : Thread nD τ).loc main_arg17)⟩]
          concatenates_S1024x1024_S1024x1024_S1024x1024_S1024x1024_S4096x1024_d0 : FVec Ideal S4096x1024 .f32) bitsLt_bf16_f32 : FVec Ideal S4096x1024 .bf16) := by
  dsimp only [entry, hostOps0]
  after_results
  rfl

/-- The bias row the region finds. -/
theorem bias_row_eq (c : Dev nD) :
    (entry (F := Ideal) m c main_v9 : S1x4096.Idx → EReal)
      = (shapeCast S1x4096 (concatenate S4096 0 [⟨S1024, addf (F := Ideal) (m ((c : Thread nD τ).loc main_arg4)) (m ((c : Thread nD τ).loc main_arg6))⟩, ⟨S1024, addf (F := Ideal) (m ((c : Thread nD τ).loc main_arg8)) (m ((c : Thread nD τ).loc main_arg10))⟩,
          ⟨S1024, addf (F := Ideal) (m ((c : Thread nD τ).loc main_arg12)) (m ((c : Thread nD τ).loc main_arg14))⟩, ⟨S1024, addf (F := Ideal) (m ((c : Thread nD τ).loc main_arg16)) (m ((c : Thread nD τ).loc main_arg18))⟩] concatenates_S1024_S1024_S1024_S1024_S4096_d0 : FVec Ideal S4096 .f32) shapeCasts_S4096_S1x4096 : FVec Ideal S1x4096 .f32) := by
  dsimp only [entry, hostOps0]
  after_results
  rfl

/-- Row `1024·g + q` of the input-side stack is row `q` of gate `g`'s input-side weight. -/
theorem stack_x_apply (c : Dev nD) (g : Fin 4) (q k : Fin 1024) :
    (entry (F := Ideal) m c main_v1 : S4096x1024.Idx → EReal) (ix2 (stacked g q) k) = (gate m c g).Wx (ix2 q k) := by
  rw [stack_x_eq]
  refine (concatenate_four_rows_apply (r := 1024) (c := 1024) (R := 4096) (m ((c : Thread nD τ).loc main_arg3)) (m ((c : Thread nD τ).loc main_arg7)) (m ((c : Thread nD τ).loc main_arg11)) (m ((c : Thread nD τ).loc main_arg15))
    concatenates_S1024x1024_S1024x1024_S1024x1024_S1024x1024_S4096x1024_d0 g q k (stacked g q) rfl).trans ?_
  match g with
  | ⟨0, _⟩ => rfl
  | ⟨1, _⟩ => rfl
  | ⟨2, _⟩ => rfl
  | ⟨3, _⟩ => rfl

/-- Row `1024·g + q` of the recurrent-side stack is row `q` of gate `g`'s recurrent-side weight. -/
theorem stack_h_apply (c : Dev nD) (g : Fin 4) (q k : Fin 1024) :
    (entry (F := Ideal) m c main_v3 : S4096x1024.Idx → EReal) (ix2 (stacked g q) k) = (gate m c g).Wh (ix2 q k) := by
  rw [stack_h_eq]
  refine (concatenate_four_rows_apply (r := 1024) (c := 1024) (R := 4096) (m ((c : Thread nD τ).loc main_arg5)) (m ((c : Thread nD τ).loc main_arg9)) (m ((c : Thread nD τ).loc main_arg13)) (m ((c : Thread nD τ).loc main_arg17))
    concatenates_S1024x1024_S1024x1024_S1024x1024_S1024x1024_S4096x1024_d0 g q k (stacked g q) rfl).trans ?_
  match g with
  | ⟨0, _⟩ => rfl
  | ⟨1, _⟩ => rfl
  | ⟨2, _⟩ => rfl
  | ⟨3, _⟩ => rfl

/-- Column `1024·g + q` of the bias row is the sum of gate `g`'s two biases at `q`. -/
theorem bias_row_apply (c : Dev nD) (g : Fin 4) (q : Fin 1024) :
    (entry (F := Ideal) m c main_v9 : S1x4096.Idx → EReal) (ix2 (0 : Fin 1) (stacked g q))
      = (gate m c g).bx (ix1 q) + (gate m c g).bh (ix1 q) := by
  rw [bias_row_eq]
  refine (shapeCast_apply _ shapeCasts_S4096_S1x4096 (ix2 (0 : Fin 1) (stacked g q)) (ix1 (stacked g q)) ?_).trans ?_
  · rw [Shape.rowMajor_val_one, Shape.rowMajor_val_two]
    show (stacked g q).val = 0 * 4096 + (stacked g q).val
    omega
  refine (concatenate_four_vectors_apply (r := 1024) (R := 4096) (addf (F := Ideal) (s := S1024) (φ := .f32) (m ((c : Thread nD τ).loc main_arg4)) (m ((c : Thread nD τ).loc main_arg6))) (addf (F := Ideal) (s := S1024) (φ := .f32) (m ((c : Thread nD τ).loc main_arg8)) (m ((c : Thread nD τ).loc main_arg10)))
    (addf (F := Ideal) (s := S1024) (φ := .f32) (m ((c : Thread nD τ).loc main_arg12)) (m ((c : Thread nD τ).loc main_arg14))) (addf (F := Ideal) (s := S1024) (φ := .f32) (m ((c : Thread nD τ).loc main_arg16)) (m ((c : Thread nD τ).loc main_arg18))) concatenates_S1024_S1024_S1024_S1024_S4096_d0 g q (stacked g q) rfl).trans ?_
  match g with
  | ⟨0, _⟩ => rfl
  | ⟨1, _⟩ => rfl
  | ⟨2, _⟩ => rfl
  | ⟨3, _⟩ => rfl

/-! ## The blocks -/

/-- The printed index maps over the 32 tiles: a batch window's block index is `(t, 0)`, a whole operand's `(0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A tile index is below 32. -/
theorem tile_lt (t : Fin cfg0.N) : t.val < 32 := lt_of_lt_of_eq t.isLt N_0

/-- Row `p` of tile `t` is batch row `256·t + p`. -/
def row (t : Fin cfg0.N) (p : Fin 256) : Fin 8192 := ⟨256 * t.val + p.val, by have := tile_lt t; have := p.isLt; omega⟩

/-- The input's block at tile `t`. -/
theorem block_x (c : Dev nD) (t : Fin cfg0.N) (p : Fin 256) (k : Fin 1024) :
    blockAt (F := Ideal) m c 0 t (ix2 p k) = (m ((c : Thread nD τ).loc main_arg2)) (ix2 (row t p) k) := by
  show entry (F := Ideal) m c main_arg2 (((cfg0.win 0).blk t).view.emb (ix2 p k)) = _
  refine (congrFun (entry_arg2 m c) _).trans (congrArg (m ((c : Thread nD τ).loc main_arg2)) (funext fun a => Fin.ext ?_))
  obtain ⟨e0, e1, -⟩ := index_facts t
  match a with
  | ⟨0, _⟩ => show win0_0.index t (0 : Fin 2) * 256 + 1 * p.val = 256 * t.val + p.val; omega
  | ⟨1, _⟩ => show win0_0.index t (1 : Fin 2) * 1024 + 1 * k.val = k.val; omega

/-- The hidden state's block at tile `t`. -/
theorem block_h (c : Dev nD) (t : Fin cfg0.N) (p : Fin 256) (k : Fin 1024) :
    blockAt (F := Ideal) m c 1 t (ix2 p k) = (m ((c : Thread nD τ).loc main_arg1)) (ix2 (row t p) k) := by
  show entry (F := Ideal) m c main_arg1 (((cfg0.win 1).blk t).view.emb (ix2 p k)) = _
  refine (congrFun (entry_arg1 m c) _).trans (congrArg (m ((c : Thread nD τ).loc main_arg1)) (funext fun a => Fin.ext ?_))
  obtain ⟨-, -, e0, e1, -⟩ := index_facts t
  match a with
  | ⟨0, _⟩ => show win0_1.index t (0 : Fin 2) * 256 + 1 * p.val = 256 * t.val + p.val; omega
  | ⟨1, _⟩ => show win0_1.index t (1 : Fin 2) * 1024 + 1 * k.val = k.val; omega

/-- The cell state's block at tile `t`. -/
theorem block_c (c : Dev nD) (t : Fin cfg0.N) (p : Fin 256) (k : Fin 1024) :
    blockAt (F := Ideal) m c 2 t (ix2 p k) = (m ((c : Thread nD τ).loc main_arg0)) (ix2 (row t p) k) := by
  show entry (F := Ideal) m c main_arg0 (((cfg0.win 2).blk t).view.emb (ix2 p k)) = _
  refine (congrFun (entry_arg0 m c) _).trans (congrArg (m ((c : Thread nD τ).loc main_arg0)) (funext fun a => Fin.ext ?_))
  obtain ⟨-, -, -, -, e0, e1, -⟩ := index_facts t
  match a with
  | ⟨0, _⟩ => show win0_2.index t (0 : Fin 2) * 256 + 1 * p.val = 256 * t.val + p.val; omega
  | ⟨1, _⟩ => show win0_2.index t (1 : Fin 2) * 1024 + 1 * k.val = k.val; omega

/-- The input-side stack's block is the whole stack, at every tile. -/
theorem block_wx (c : Dev nD) (t : Fin cfg0.N) (n : Fin 4096) (k : Fin 1024) :
    blockAt (F := Ideal) m c 3 t (ix2 n k) = (entry (F := Ideal) m c main_v1 : S4096x1024.Idx → EReal) (ix2 n k) := by
  show entry (F := Ideal) m c main_v1 (((cfg0.win 3).blk t).view.emb (ix2 n k)) = _
  refine congrArg (entry (F := Ideal) m c main_v1 : S4096x1024.Idx → EReal) (funext fun a => Fin.ext ?_)
  obtain ⟨-, -, -, -, -, -, e0, e1, -⟩ := index_facts t
  match a with
  | ⟨0, _⟩ => show win0_3.index t (0 : Fin 2) * 4096 + 1 * n.val = n.val; omega
  | ⟨1, _⟩ => show win0_3.index t (1 : Fin 2) * 1024 + 1 * k.val = k.val; omega

/-- The recurrent-side stack's block is the whole stack, at every tile. -/
theorem block_wh (c : Dev nD) (t : Fin cfg0.N) (n : Fin 4096) (k : Fin 1024) :
    blockAt (F := Ideal) m c 4 t (ix2 n k) = (entry (F := Ideal) m c main_v3 : S4096x1024.Idx → EReal) (ix2 n k) := by
  show entry (F := Ideal) m c main_v3 (((cfg0.win 4).blk t).view.emb (ix2 n k)) = _
  refine congrArg (entry (F := Ideal) m c main_v3 : S4096x1024.Idx → EReal) (funext fun a => Fin.ext ?_)
  obtain ⟨-, -, -, -, -, -, -, -, e0, e1, -⟩ := index_facts t
  match a with
  | ⟨0, _⟩ => show win0_4.index t (0 : Fin 2) * 4096 + 1 * n.val = n.val; omega
  | ⟨1, _⟩ => show win0_4.index t (1 : Fin 2) * 1024 + 1 * k.val = k.val; omega

/-- The bias row's block is the whole row, at every tile. -/
theorem block_b (c : Dev nD) (t : Fin cfg0.N) (n : Fin 4096) :
    blockAt (F := Ideal) m c 5 t (ix2 (0 : Fin 1) n) = (entry (F := Ideal) m c main_v9 : S1x4096.Idx → EReal) (ix2 (0 : Fin 1) n) := by
  show entry (F := Ideal) m c main_v9 (((cfg0.win 5).blk t).view.emb (ix2 (0 : Fin 1) n)) = _
  refine congrArg (entry (F := Ideal) m c main_v9 : S1x4096.Idx → EReal) (funext fun a => Fin.ext ?_)
  obtain ⟨-, -, -, -, -, -, -, -, -, -, e0, e1, -⟩ := index_facts t
  match a with
  | ⟨0, _⟩ => show win0_5.index t (0 : Fin 2) * 1 + 1 * 0 = 0; omega
  | ⟨1, _⟩ => show win0_5.index t (1 : Fin 2) * 4096 + 1 * n.val = n.val; omega

end Cert.KernelIdeal.Operands

end
-- ==== Proof.TileResults.lean ====
/-
  What the idealized kernel's two result arrays hold after the run: the cell step of the launch contents.

  Tile `t` writes back rows `256·t … 256·t + 255` of each result. At entry `(p, q)` of the tile the stored values are the
  body's arithmetic of the six blocks; with the blocks read as parts of the launch arrays, the four column blocks of the
  stacked pre-activations are the four gates' pre-activations at batch row `256·t + p` — the two products first and the
  two biases after, which is the same extended real as the specification's grouping —, so the stored values are the
  specification's new cell state and new hidden state at `(256·t + p, q)`. The 32 tiles cover all 8192 rows (row `r` lies in
  tile `r / 256`), so each result array ends as the specification's array.
-/
import proofs.«175613_j1872605741706_2_alg».proof.Proof.TileOperands

set_option maxRecDepth 16384

noncomputable section

namespace Cert.KernelIdeal.Result

open Cert.KernelIdeal Cert.KernelIdeal.Gen Cert.KernelIdeal.Region Cert.KernelIdeal.Tile Cert.KernelIdeal.Operands
open Idealize.ShloMosaic Idealize.ShloMosaic.TcCoe Idealize.SL.Sem Idealize.ShloMosaic.ValueIdx
open Idealize.ShloMosaic.Pipeline (Dat)
open Cert.LstmCell

variable (m : (ℓ : Loc nD τ sig) → Buf (Elt Ideal) ℓ) (ρ : Dev nD → PrngReg)

/-- The specification's new cell state of the launch contents. -/
def cellSpec (c : Dev nD) : S8192x1024.Idx → EReal :=
  cellNext (m ((c : Thread nD τ).loc main_arg0)) (m ((c : Thread nD τ).loc main_arg1)) (m ((c : Thread nD τ).loc main_arg2)) (gate m c 0) (gate m c 1) (gate m c 2)

/-- The specification's new hidden state of the launch contents. -/
def hiddenSpec (c : Dev nD) : S8192x1024.Idx → EReal :=
  hiddenNext (m ((c : Thread nD τ).loc main_arg0)) (m ((c : Thread nD τ).loc main_arg1)) (m ((c : Thread nD τ).loc main_arg2)) (gate m c 0) (gate m c 1) (gate m c 2) (gate m c 3)

/-! ## One tile -/

/-- Column block `g` of the stacked pre-activations at tile `t` is gate `g`'s pre-activation at batch row `256·t + p`. -/
theorem pre_at_tile (c : Dev nD) (t : Fin cfg0.N) (g : Fin 4) (p : Fin 256) (q : Fin 1024) :
    preAt (blockAt (F := Ideal) m c 0 t) (blockAt (F := Ideal) m c 1 t) (blockAt (F := Ideal) m c 3 t) (blockAt (F := Ideal) m c 4 t) (blockAt (F := Ideal) m c 5 t) p (stacked g q)
      = (gate m c g).pre (m ((c : Thread nD τ).loc main_arg2)) (m ((c : Thread nD τ).loc main_arg1)) (row t p) q := by
  rw [Gate.pre_regroup]
  unfold preAt
  simp only [block_x, block_h, block_wx, block_wh, block_b]
  exact congrArg₂ (· + ·)
    (congrArg₂ (· + ·)
      (Finset.sum_congr rfl fun k _ => congrArg (HMul.hMul _) (stack_x_apply m c g q k))
      (Finset.sum_congr rfl fun k _ => congrArg (HMul.hMul _) (stack_h_apply m c g q k)))
    (bias_row_apply m c g q)

/-- The first stored tile at `(p, q)` is the specification's new cell state at `(256·t + p, q)`. -/
theorem cell_at_tile (c : Dev nD) (t : Fin cfg0.N) (p : Fin 256) (q : Fin 1024) :
    k0_pay2 (F := Ideal) (blockAt (F := Ideal) m c 0 t) (blockAt (F := Ideal) m c 1 t) (blockAt (F := Ideal) m c 2 t) (blockAt (F := Ideal) m c 3 t) (blockAt (F := Ideal) m c 4 t) (blockAt (F := Ideal) m c 5 t) (ix2 p q) = cellSpec m c (ix2 (row t p) q) := by
  refine (cell_apply (blockAt (F := Ideal) m c 0 t) (blockAt (F := Ideal) m c 1 t) (blockAt (F := Ideal) m c 2 t) (blockAt (F := Ideal) m c 3 t) (blockAt (F := Ideal) m c 4 t) (blockAt (F := Ideal) m c 5 t) p q).trans ?_
  rw [pre_at_tile, pre_at_tile, pre_at_tile, block_c]
  rfl

/-- The second stored tile at `(p, q)` is the specification's new hidden state at `(256·t + p, q)`. -/
theorem hidden_at_tile (c : Dev nD) (t : Fin cfg0.N) (p : Fin 256) (q : Fin 1024) :
    k0_pay3 (F := Ideal) (blockAt (F := Ideal) m c 0 t) (blockAt (F := Ideal) m c 1 t) (blockAt (F := Ideal) m c 2 t) (blockAt (F := Ideal) m c 3 t) (blockAt (F := Ideal) m c 4 t) (blockAt (F := Ideal) m c 5 t) (ix2 p q) = hiddenSpec m c (ix2 (row t p) q) := by
  refine (hidden_apply (blockAt (F := Ideal) m c 0 t) (blockAt (F := Ideal) m c 1 t) (blockAt (F := Ideal) m c 2 t) (blockAt (F := Ideal) m c 3 t) (blockAt (F := Ideal) m c 4 t) (blockAt (F := Ideal) m c 5 t) p q).trans ?_
  rw [pre_at_tile, cell_at_tile]
  rfl

/-! ## What a tile writes back -/

theorem zero_offsets : (![0, 0] : Fin 2 → Nat) = fun _ => 0 := funext fun a => by fin_cases a <;> rfl

/-- Tile `t` writes back, to the first result, block `t` of the specification's new cell state. -/
theorem flushed_cell (c : Dev nD) (t : Fin cfg0.N) :
    (pdat (F := Ideal) m 0 c).flushed 6 t = ((cfg0.win 6).blk t).view.read (Elt Ideal) (cellSpec m c) := by
  show (cfg0.win 6).cut (grid0.coords t) ((pdat (F := Ideal) m 0 c).after 6 t) = _
  rw [pdat_after6]
  unfold cellTile
  rw [View.canon_unit_zero zero_offsets]
  simp only [View.ld_unit_zero (S := S256x1024) zero_offsets, View.ld_unit_zero (S := S4096x1024) zero_offsets,
    View.ld_unit_zero (S := S1x4096) zero_offsets]
  funext y
  obtain ⟨p, q, rfl⟩ : ∃ (p : Fin 256) (q : Fin 1024), y = ix2 p q := ⟨y 0, y 1, eq_ix2 y⟩
  show k0_pay2 (F := Ideal) (blockAt (F := Ideal) m c 0 t) (blockAt (F := Ideal) m c 1 t) (blockAt (F := Ideal) m c 2 t) (blockAt (F := Ideal) m c 3 t) (blockAt (F := Ideal) m c 4 t) (blockAt (F := Ideal) m c 5 t) (ix2 p q) = cellSpec m c (((cfg0.win 6).blk t).view.emb (ix2 p q))
  rw [cell_at_tile]
  refine congrArg (cellSpec m c) (funext fun a => Fin.ext ?_)
  obtain ⟨-, -, -, -, -, -, -, -, -, -, -, -, e0, e1, -⟩ := index_facts t
  match a with
  | ⟨0, _⟩ => show 256 * t.val + p.val = win0_6.index t (0 : Fin 2) * 256 + 1 * p.val; omega
  | ⟨1, _⟩ => show q.val = win0_6.index t (1 : Fin 2) * 1024 + 1 * q.val; omega

/-- Tile `t` writes back, to the second result, block `t` of the specification's new hidden state. -/
theorem flushed_hidden (c : Dev nD) (t : Fin cfg0.N) :
    (pdat (F := Ideal) m 0 c).flushed 7 t = ((cfg0.win 7).blk t).view.read (Elt Ideal) (hiddenSpec m c) := by
  show (cfg0.win 7).cut (grid0.coords t) ((pdat (F := Ideal) m 0 c).after 7 t) = _
  rw [pdat_after7]
  unfold hiddenTile
  rw [View.canon_unit_zero zero_offsets]
  simp only [View.ld_unit_zero (S := S256x1024) zero_offsets, View.ld_unit_zero (S := S4096x1024) zero_offsets,
    View.ld_unit_zero (S := S1x4096) zero_offsets]
  funext y
  obtain ⟨p, q, rfl⟩ : ∃ (p : Fin 256) (q : Fin 1024), y = ix2 p q := ⟨y 0, y 1, eq_ix2 y⟩
  show k0_pay3 (F := Ideal) (blockAt (F := Ideal) m c 0 t) (blockAt (F := Ideal) m c 1 t) (blockAt (F := Ideal) m c 2 t) (blockAt (F := Ideal) m c 3 t) (blockAt (F := Ideal) m c 4 t) (blockAt (F := Ideal) m c 5 t) (ix2 p q) = hiddenSpec m c (((cfg0.win 7).blk t).view.emb (ix2 p q))
  rw [hidden_at_tile]
  refine congrArg (hiddenSpec m c) (funext fun a => Fin.ext ?_)
  obtain ⟨-, -, -, -, -, -, -, -, -, -, -, -, -, -, e0, e1⟩ := index_facts t
  match a with
  | ⟨0, _⟩ => show 256 * t.val + p.val = win0_7.index t (0 : Fin 2) * 256 + 1 * p.val; omega
  | ⟨1, _⟩ => show q.val = win0_7.index t (1 : Fin 2) * 1024 + 1 * q.val; omega

/-! ## The tiles cover the results -/

/-- An index of the first result is in tile `t`'s block iff each coordinate is in the block's range. -/
theorem mem_block6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

/-- The same for the second result. -/
theorem mem_block7 (t : Fin cfg0.N) (i : S8192x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- The tile holding batch row `r`. -/
def tileOf (i : S8192x1024.Idx) : Fin cfg0.N :=
  ⟨(i 0).val / 256, by have h : (i 0).val < 8192 := (i 0).isLt; rw [show cfg0.N = 32 from N_0]; omega⟩

/-- Every index of the first result is in the block of the tile holding its row. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  refine ⟨tileOf i, flush0_6 _, ?_⟩
  rw [mem_block6]
  obtain ⟨-, -, -, -, -, -, -, -, -, -, -, -, e0, e1, -⟩ := index_facts (tileOf i)
  have ht : (tileOf i).val = (i 0).val / 256 := rfl
  intro a
  match a with
  | ⟨0, _⟩ => show win0_6.index (tileOf i) (0 : Fin 2) * 256 ≤ (i 0).val ∧ (i 0).val < win0_6.index (tileOf i) (0 : Fin 2) * 256 + 256; omega
  | ⟨1, _⟩ => show win0_6.index (tileOf i) (1 : Fin 2) * 1024 ≤ (i 1).val ∧ (i 1).val < win0_6.index (tileOf i) (1 : Fin 2) * 1024 + 1024; omega

/-- The same for the second result. -/
theorem cover7 (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  refine ⟨tileOf i, flush0_7 _, ?_⟩
  rw [mem_block7]
  obtain ⟨-, -, -, -, -, -, -, -, -, -, -, -, -, -, e0, e1⟩ := index_facts (tileOf i)
  have ht : (tileOf i).val = (i 0).val / 256 := rfl
  intro a
  match a with
  | ⟨0, _⟩ => show win0_7.index (tileOf i) (0 : Fin 2) * 256 ≤ (i 0).val ∧ (i 0).val < win0_7.index (tileOf i) (0 : Fin 2) * 256 + 256; omega
  | ⟨1, _⟩ => show win0_7.index (tileOf i) (1 : Fin 2) * 1024 ≤ (i 1).val ∧ (i 1).val < win0_7.index (tileOf i) (1 : Fin 2) * 1024 + 1024; omega

/-- The first result array after the run. -/
theorem final_cell (c : Dev nD) : (pdat (F := Ideal) m 0 c).arrAt 6 cfg0.N = cellSpec m c :=
  (pdat (F := Ideal) m 0 c).arrAt_eq_of_cover 6 (cellSpec m c) (fun t _ => flushed_cell m c t) cover6

/-- The second result array after the run. -/
theorem final_hidden (c : Dev nD) : (pdat (F := Ideal) m 0 c).arrAt 7 cfg0.N = hiddenSpec m c :=
  (pdat (F := Ideal) m 0 c).arrAt_eq_of_cover 7 (hiddenSpec m c) (fun t _ => flushed_hidden m c t) cover7

/-! ## The run, read -/

/-- Every weakly fair execution of the idealized kernel terminates, nothing faulting, with the two results at the
    specification's arrays of the launch contents and the nineteen arguments unchanged. -/
theorem run : θ_run defs (onTc (τ := τ) (main (F := Ideal))) ⟨m, fun _ => 0, ρ⟩ fun r => ∀ c : Dev nD,
      r.2.mem ((c.tc : Thread nD τ).loc main_v10_0) = cellSpec m c
      ∧ r.2.mem ((c.tc : Thread nD τ).loc main_v10_1) = hiddenSpec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final_cell m c), ((h c).1 7).trans (final_hidden m c), args_of_post m r h c⟩)
    (run_region (F := Ideal) m ρ)

end Cert.KernelIdeal.Result

end
-- ==== Proof.LibLogisticExpanded.lean ====
/-
  The logistic function on the extended reals in its expanded spelling.

  A program that does not use a logistic operation writes σ(z) as 1.0 / (1.0 + exp (-z)), with the f32 word of 1.0 for
  both ones. On the extended reals (division, exponential and negation extended to ±∞ as the ideal instance extends
  them) this is the ideal instance's logistic function, which is what a logistic operation denotes there: the word of
  1.0 is the real number 1, and the rest is the definition. Imports only the ideal instance.
-/
import Idealize.ShloMosaic.PureOps.Ideal

noncomputable section

namespace Cert.Lib.Logistic

open Idealize.ShloMosaic

/-- The f32 word of 1.0 is the extended real 1. -/
theorem one_word : Ideal.ofBits .f32 0x3F800000#32 = 1 := by
  simp [Ideal.ofBits, Ideal.ieee, -EReal.coe_mul]; norm_num

/-- The expanded logistic 1.0 / (1.0 + exp (-z)), both ones the f32 word of 1.0, is the logistic function, for every
    extended real `z` (the infinities included). -/
theorem logistic_expanded (z : EReal) :
    Ideal.div (Ideal.ofBits .f32 0x3F800000#32) (Ideal.ofBits .f32 0x3F800000#32 + Ideal.exp (-z)) = Ideal.logistic z := by
  rw [one_word]; rfl

/-- The same read through the operations of the float interface at the ideal instance, host side: divide, add,
    exponential and negate of the host program. -/
theorem host_logistic_expanded (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = FloatOps.logistic z :=
  logistic_expanded z

end Cert.Lib.Logistic

end
-- ==== Proof.RefIsLstm.lean ====
/-
  The reference program computes one step of the long short-term memory cell.

  The reference's run is read one operation at a time in the generated module `Read`. Here its two results, the new
  cell state (`main_v48`) and the new hidden state (`main_v67`), are shown to be the arrays of the specification
  `Cert.LstmCell`, entry by entry, on the extended reals.

  The reference spells each affine map as a contraction of the batch with the TRANSPOSED weight plus the bias broadcast
  along the rows: at row `p`, feature `q` this is ∑ k, x (p, k) · W (q, k) + b q, because the transposed weight at
  (k, q) is the weight at (q, k). It spells each logistic function as 1.0 / (1.0 + exp (-z)), which is the logistic
  function of the extended reals (`Cert.Lib.Logistic`). The four gates run the same operations on different operands,
  so one gate is read in full and the three others are that reading at other operands.
-/
import proofs.«175613_j1872605741706_2_alg».proof.Proof.Gen.ReferenceIdeal.Read
import proofs.«175613_j1872605741706_2_alg».proof.Proof.LstmCell
import proofs.«175613_j1872605741706_2_alg».proof.Proof.LibLogisticExpanded

noncomputable section

open scoped BigOperators

namespace Cert.RefIsLstm

open Cert.ReferenceIdeal Cert.ReferenceIdeal.Read Idealize.ShloMosaic Idealize.ShloMosaic.ValueIdx Cert.LstmCell

/-- A batch array (8192 × 1024) of the reference program at the extended reals. -/
abbrev TB := (⟨S8192x1024, .f32⟩ : BufTy).Contents (Elt Ideal)
/-- A weight matrix (1024 × 1024) of the reference program at the extended reals. -/
abbrev TW := (⟨S1024x1024, .f32⟩ : BufTy).Contents (Elt Ideal)
/-- A bias vector (1024) of the reference program at the extended reals. -/
abbrev Tv := (⟨S1024, .f32⟩ : BufTy).Contents (Elt Ideal)

/-- One affine stage of the reference, `dot_general (x, transpose W) + broadcast b`, at row `p`, feature `q`, is
    ∑ k, x (p, k) · W (q, k) + b q. The contraction runs over the batch's column and the transposed weight's row; the
    transposed weight at (k, q) is the weight at (q, k); the bias, broadcast first to one row and then to all rows, is
    read at its feature `q`. -/
theorem affine_stage (x : TB) (W : TW) (b : Tv) (p : Fin 8192) (q : Fin 1024) :
    val_main_v4 (F := Ideal) x W b (ix2 p q) = affine x W b p q := by
  rw [val_main_v4_apply, val_main_v1_apply, val_main_v3_apply, val_main_v2_apply]
  have e1 : ∀ k : Fin 1024, lidx_main_v1 (ix2 p q) k = ix2 p k := fun k =>
    funext fun a => Fin.ext (by match a with | ⟨0, _⟩ => rfl | ⟨1, _⟩ => rfl)
  have e2 : ∀ k : Fin 1024, idx_main_v0 (ridx_main_v1 (ix2 p q) k) = ix2 q k := fun k =>
    funext fun a => Fin.ext (by match a with | ⟨0, _⟩ => rfl | ⟨1, _⟩ => rfl)
  have e3 : idx_main_v2 (idx_main_v3 (ix2 p q)) = ix1 q :=
    funext fun a => Fin.ext (by match a with | ⟨0, _⟩ => rfl)
  simp only [val_main_v0_apply, e1, e2, e3]
  rfl

/-- The recurrent-side affine stage is the input-side one at other operands: the same operations in the same order. -/
theorem v9_eq (h : TB) (W : TW) (b : Tv) :
    val_main_v9 (F := Ideal) h W b = val_main_v4 (F := Ideal) h W b := rfl

/-- A gate's pre-activation stage: the input's affine image plus the hidden state's, in that order. -/
theorem pre_stage (h x : TB) (Wx : TW) (bx : Tv) (Wh : TW) (bh : Tv) (p : Fin 8192) (q : Fin 1024) :
    val_main_v10 (F := Ideal) h x Wx bx Wh bh (ix2 p q) = Gate.pre ⟨Wx, bx, Wh, bh⟩ x h p q := by
  rw [val_main_v10_apply, v9_eq, affine_stage, affine_stage]
  rfl

/-- A gate's logistic stage: 1.0 / (1.0 + exp (-z)) entry by entry, with `z` the pre-activation and both ones the
    constant 1.0 broadcast to every entry, is the logistic function of `z`. -/
theorem logistic_stage (h x : TB) (Wx : TW) (bx : Tv) (Wh : TW) (bh : Tv) (i : S8192x1024.Idx) :
    val_main_v16 (F := Ideal) h x Wx bx Wh bh i
      = Ideal.logistic (val_main_v10 (F := Ideal) h x Wx bx Wh bh i) := by
  rw [val_main_v16_apply, val_main_v15_apply, val_main_cst_0_apply, val_main_v14_apply, val_main_v13_apply,
    val_main_cst_apply, val_main_v12_apply, val_main_v11_apply]
  exact Cert.Lib.Logistic.host_logistic_expanded _

/-! The input, candidate and output gates run the forget gate's operations on their own operands. -/

/-- The input gate's pre-activation stage is the forget gate's at the input gate's operands. -/
theorem v27_eq (h x : TB) (Wx : TW) (bx : Tv) (Wh : TW) (bh : Tv) :
    val_main_v27 (F := Ideal) h x Wx bx Wh bh = val_main_v10 (F := Ideal) h x Wx bx Wh bh := rfl
/-- The input gate's logistic stage is the forget gate's at the input gate's operands. -/
theorem v33_eq (h x : TB) (Wx : TW) (bx : Tv) (Wh : TW) (bh : Tv) :
    val_main_v33 (F := Ideal) h x Wx bx Wh bh = val_main_v16 (F := Ideal) h x Wx bx Wh bh := rfl
/-- The candidate's pre-activation stage is the forget gate's at the candidate's operands. -/
theorem v44_eq (h x : TB) (Wx : TW) (bx : Tv) (Wh : TW) (bh : Tv) :
    val_main_v44 (F := Ideal) h x Wx bx Wh bh = val_main_v10 (F := Ideal) h x Wx bx Wh bh := rfl
/-- The output gate's pre-activation stage is the forget gate's at the output gate's operands. -/
theorem v59_eq (h x : TB) (Wx : TW) (bx : Tv) (Wh : TW) (bh : Tv) :
    val_main_v59 (F := Ideal) h x Wx bx Wh bh = val_main_v10 (F := Ideal) h x Wx bx Wh bh := rfl
/-- The output gate's logistic stage is the forget gate's at the output gate's operands. -/
theorem v65_eq (h x : TB) (Wx : TW) (bx : Tv) (Wh : TW) (bh : Tv) :
    val_main_v65 (F := Ideal) h x Wx bx Wh bh = val_main_v16 (F := Ideal) h x Wx bx Wh bh := rfl

/-- The reference's new cell state is the specification's: c · σ(forget) + σ(input) · tanh(candidate), entry by
    entry. Arguments: `x0` the cell state, `x1` the hidden state, `x2` the input; then for the forget, input and
    candidate gates in turn the input weight, input bias, recurrent weight, recurrent bias. -/
theorem ref_cell (x0 x1 x2 : (⟨S8192x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal))
    (x13 : (⟨S1024x1024, .f32⟩ : BufTy).Contents (Elt Ideal)) (x14 : (⟨S1024, .f32⟩ : BufTy).Contents (Elt Ideal)) :
    val_main_v48 (F := Ideal) x0 x1 x2 x3 x4 x5 x6 x7 x8 x9 x10 x11 x12 x13 x14
      = cellNext x0 x1 x2 ⟨x3, x4, x5, x6⟩ ⟨x7, x8, x9, x10⟩ ⟨x11, x12, x13, x14⟩ := by
  funext j
  obtain ⟨p, q, rfl⟩ : ∃ (p : Fin 8192) (q : Fin 1024), j = ix2 p q := ⟨j 0, j 1, eq_ix2 j⟩
  rw [cellNext_apply, val_main_v48_apply, val_main_v46_apply, val_main_v47_apply, val_main_v45_apply,
    v33_eq, v44_eq, logistic_stage, logistic_stage, pre_stage, pre_stage, pre_stage]
  rfl

/-- The reference's new hidden state is the specification's: σ(output) · tanh(new cell state), entry by entry.
    Arguments as in `ref_cell`, then the output gate's input weight, input bias, recurrent weight, recurrent bias. -/
theorem ref_hidden (x0 x1 x2 : (⟨S8192x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (x11 : (⟨S1024x1024, .f32⟩ : BufTy).Contents (Elt Ideal)) (x12 : (⟨S1024, .f32⟩ : BufTy).Contents (Elt Ideal))
    (x13 : (⟨S1024x1024, .f32⟩ : BufTy).Contents (Elt Ideal)) (x14 : (⟨S1024, .f32⟩ : BufTy).Contents (Elt Ideal))
    (x15 : (⟨S1024x1024, .f32⟩ : BufTy).Contents (Elt Ideal)) (x16 : (⟨S1024, .f32⟩ : BufTy).Contents (Elt Ideal))
    (x17 : (⟨S1024x1024, .f32⟩ : BufTy).Contents (Elt Ideal)) (x18 : (⟨S1024, .f32⟩ : BufTy).Contents (Elt Ideal)) :
    val_main_v67 (F := Ideal) x0 x1 x2 x3 x4 x5 x6 x7 x8 x9 x10 x11 x12 x13 x14 x15 x16 x17 x18
      = hiddenNext x0 x1 x2 ⟨x3, x4, x5, x6⟩ ⟨x7, x8, x9, x10⟩ ⟨x11, x12, x13, x14⟩ ⟨x15, x16, x17, x18⟩ := by
  funext j
  obtain ⟨p, q, rfl⟩ : ∃ (p : Fin 8192) (q : Fin 1024), j = ix2 p q := ⟨j 0, j 1, eq_ix2 j⟩
  rw [hiddenNext_apply, val_main_v67_apply, val_main_v66_apply, ref_cell, cellNext_apply,
    v65_eq, logistic_stage, pre_stage]
  rfl

end Cert.RefIsLstm

end
-- ==== Proof.lean ====
/-
  The certificate: a fused long short-term memory cell kernel against its reference, on the extended reals.

  The kernel stacks the four gates' input-side weights into one matrix, the recurrent-side weights into another and the
  four sums of bias pairs into one row, and runs a pipelined region over 32 tiles of 256 batch rows: per tile two matrix
  products against the stacks (each operand's last axis contracted), their sum plus the bias row, the four column blocks
  of the result through the logistic function (forget, input, output) or the hyperbolic tangent (candidate), and the cell
  step c' = c · forget + input · candidate, h' = output · tanh c'. The reference computes each gate separately as
  (x · Wxᵀ + bx) + (h · Whᵀ + bh), with the logistic function spelt 1 / (1 + exp (−z)).

  On the extended reals a change of float format is the identity, a matrix product accumulated from zero is the plain sum
  of products, the expanded logistic is the logistic function, and (a + bx) + (a' + bh) = (a + a') + (bx + bh) because
  addition of extended reals is commutative and associative — no entry needs to be finite, so the precondition is never
  opened. Both programs' results are therefore the specification's two arrays (`Cert.LstmCell`) of the arguments.

  The three frames: both kernel programs run to the pipeline library's post, from which the arguments are read unchanged;
  the reference's frame is its run with the results dropped. The idealization rewrote nothing, so `preserves` is trivial.
-/
import proofs.«175613_j1872605741706_2_alg».proof.Defs
import proofs.«175613_j1872605741706_2_alg».proof.Proof.Gen.Kernel
import proofs.«175613_j1872605741706_2_alg».proof.Proof.Gen.KernelIdeal
import proofs.«175613_j1872605741706_2_alg».proof.Proof.Gen.ReferenceIdeal
import proofs.«175613_j1872605741706_2_alg».proof.Proof.Gen.Pre_finite_inputs
import proofs.«175613_j1872605741706_2_alg».proof.Proof.Gen.ReferenceIdeal.Run
import proofs.«175613_j1872605741706_2_alg».proof.Proof.Gen.ReferenceIdeal.Read
import proofs.«175613_j1872605741706_2_alg».proof.Proof.RegionBits
import proofs.«175613_j1872605741706_2_alg».proof.Proof.TileResults
import proofs.«175613_j1872605741706_2_alg».proof.Proof.RefIsLstm
import Idealize.ShloMosaic.Adequacy
import Idealize.ShloMosaic.Init

noncomputable section

namespace Cert.Proof

open Idealize.ShloMosaic Idealize.ShloMosaic.TcCoe Idealize.SL.Sem

/-- The kernel runs and leaves its arguments unchanged. -/
theorem frame_kernel : Cert.frame_Kernel := fun m ρ _ => Cert.Kernel.Region.args_unchanged (F := Bits) m ρ

/-- So does its idealization. -/
theorem frame_ideal : Cert.frame_KernelIdeal := fun m ρ _ => Cert.KernelIdeal.Region.args_unchanged (F := Ideal) m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the specification's new cell state and new
    hidden state of those arguments. -/
theorem algebraic : Cert.algebraic_KernelIdeal_ReferenceIdeal := by
  intro m ρ m' ρ' _ hagree
  refine ⟨fun c => Cert.KernelIdeal.Result.cellSpec m c, fun c => Cert.KernelIdeal.Result.hiddenSpec m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v48_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ?_
    refine (Cert.RefIsLstm.ref_cell (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans ?_
    obtain ⟨h0, h1, h2, h3, h4, h5, h6, h7, h8, h9, h10, h11, h12, h13, h14, h15, h16, h17, h18⟩ := hagree c
    rw [h0, h1, h2, h3, h4, h5, h6, h7, h8, h9, h10, h11, h12, h13, h14]
    rfl
  · refine (Cert.ReferenceIdeal.Read.val_main_v67_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))).trans ?_
    refine (Cert.RefIsLstm.ref_hidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))).trans ?_
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
